-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2 : Shape := ⟨2, ![2048, 2]⟩
abbrev S8192x2 : Shape := ⟨2, ![8192, 2]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S2048x2 .f32) (main_arg1 : FVec F S2048x2 .f32) (main_arg2 : FVec F S8192x2 .f32) : IVec S_ 1 :=
  let main_v0 : FVec F S2048x2 .f32 := Host.absf main_arg0
  let main_cst : FVec F S_ .f32 := constant S_ .f32 0x7F800000#32
  let main_v1 : FVec F S2048x2 .f32 := broadcastInDim S2048x2 ![] bcast_S_S2048x2 main_cst
  let main_v2 : IVec S2048x2 1 := cmpf .olt main_v0 main_v1
  let main_c : IVec S_ 1 := constantI S_ 1 1#1
  let main_v3 : IVec S_ 1 := (fun x v => Host.reduce IntOp.andi x v reducesTo_S2048x2_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8192x2 .f32 := Host.absf main_arg2
  let main_cst_2 : FVec F S_ .f32 := constant S_ .f32 0x7F800000#32
  let main_v10 : FVec F S8192x2 .f32 := broadcastInDim S8192x2 ![] bcast_S_S8192x2 main_cst_2
  let main_v11 : IVec S8192x2 1 := cmpf .olt main_v9 main_v10
  let main_c_3 : IVec S_ 1 := constantI S_ 1 1#1
  let main_v12 : IVec S_ 1 := (fun x v => Host.reduce IntOp.andi x v reducesTo_S8192x2_S_d0_1 h_S_) main_v11 main_c_3
  let main_v13 : IVec S_ 1 := andi main_v8 main_v12
  main_v13
-- ==== Kernel.lean ====
abbrev S2048x2 : Shape := ⟨2, ![2048, 2]⟩
abbrev S8192x2 : Shape := ⟨2, ![8192, 2]⟩
abbrev S2x8192 : Shape := ⟨2, ![2, 8192]⟩
abbrev S2048x8192 : Shape := ⟨2, ![2048, 8192]⟩
abbrev S512x2 : Shape := ⟨2, ![512, 2]⟩
abbrev S2x2048 : Shape := ⟨2, ![2, 2048]⟩
abbrev S512x2048 : Shape := ⟨2, ![512, 2048]⟩
abbrev S512x1 : Shape := ⟨2, ![512, 1]⟩
abbrev S1x2048 : Shape := ⟨2, ![1, 2048]⟩
abbrev S2048x8192x1 : Shape := ⟨3, ![2048, 8192, 1]⟩
abbrev S2048x8192x2 : Shape := ⟨3, ![2048, 8192, 2]⟩

abbrev nBuf : Space → Nat
  | .hbm => 9
  | .vmem => 12
  | .smem => 0
  | _ => 0

abbrev bufTy : (tb : Table) → Fin (tcTables nBuf tb) → BufTy
  | .hbm, ⟨0, _⟩ => ⟨S2048x2, .f32⟩
  | .hbm, ⟨1, _⟩ => ⟨S2048x2, .f32⟩
  | .hbm, ⟨2, _⟩ => ⟨S8192x2, .f32⟩
  | .hbm, ⟨3, _⟩ => ⟨S2x8192, .f32⟩
  | .hbm, ⟨4, _⟩ => ⟨S2048x8192, .f32⟩
  | .hbm, ⟨5, _⟩ => ⟨S2048x8192, .f32⟩
  | .hbm, ⟨6, _⟩ => ⟨S2048x8192x1, .f32⟩
  | .hbm, ⟨7, _⟩ => ⟨S2048x8192x1, .f32⟩
  | .hbm, ⟨8, _⟩ => ⟨S2048x8192x2, .f32⟩
  | .local _ .vmem, ⟨0, _⟩ => ⟨S512x2, .f32⟩
  | .local _ .vmem, ⟨1, _⟩ => ⟨S512x2, .f32⟩
  | .local _ .vmem, ⟨2, _⟩ => ⟨S2x2048, .f32⟩
  | .local _ .vmem, ⟨3, _⟩ => ⟨S2x2048, .f32⟩
  | .local _ .vmem, ⟨4, _⟩ => ⟨S512x2048, .f32⟩
  | .local _ .vmem, ⟨5, _⟩ => ⟨S512x2048, .f32⟩
  | .local _ .vmem, ⟨6, _⟩ => ⟨S512x2, .f32⟩
  | .local _ .vmem, ⟨7, _⟩ => ⟨S512x2, .f32⟩
  | .local _ .vmem, ⟨8, _⟩ => ⟨S2x2048, .f32⟩
  | .local _ .vmem, ⟨9, _⟩ => ⟨S2x2048, .f32⟩
  | .local _ .vmem, ⟨10, _⟩ => ⟨S512x2048, .f32⟩
  | .local _ .vmem, ⟨11, _⟩ => ⟨S512x2048, .f32⟩
  | _, _ => ⟨S2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S8192x2_S2x8192_1_0 : S8192x2.Transposes [1, 0] S2x8192
  inb_S512x2_S512x2_0_0 : ∀ a, (![0, 0] : Fin 2 → Nat) a + S512x2.size a ≤ S512x2.size a
  h_S512x2 : 0 < S512x2.numel
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S512x2_o0_0_S512x1 : S512x2.Slices ![0, 0] S512x1
  slices_S512x2_o0_1_S512x1 : S512x2.Slices ![0, 1] S512x1
  slices_S2x2048_o0_0_S1x2048 : S2x2048.Slices ![0, 0] S1x2048
  slices_S2x2048_o1_0_S1x2048 : S2x2048.Slices ![1, 0] S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  bcast_S2048x8192_S2048x8192x1_0_1 : S2048x8192.BroadcastsInDim S2048x8192x1 (![0, 1] : Fin 2 → Fin S2048x8192x1.rank)
  concatenates_S2048x8192x1_S2048x8192x1_S2048x8192x2_d2 : Shape.Concatenates [S2048x8192x1, S2048x8192x1] S2048x8192x2 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S2048x2.size a
  hwx0_0 : ∀ i : grid0.Coords, EltTy.bits .f32 = 32 ∨ (Rect.block (s := S2048x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x8192.size a
  hwx0_1 : ∀ i : grid0.Coords, EltTy.bits .f32 = 32 ∨ (Rect.block (s := S2x8192) S2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x8192.size a
  hwx0_2 : ∀ i : grid0.Coords, EltTy.bits .f32 = 32 ∨ (Rect.block (s := S2048x8192) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2.size a ≤ S2048x2.size a
  hwx1_0 : ∀ i : grid1.Coords, EltTy.bits .f32 = 32 ∨ (Rect.block (s := S2048x2) S512x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x2048.size a ≤ S2x8192.size a
  hwx1_1 : ∀ i : grid1.Coords, EltTy.bits .f32 = 32 ∨ (Rect.block (s := S2x8192) S2x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S2048x8192.size a
  hwx1_2 : ∀ i : grid1.Coords, EltTy.bits .f32 = 32 ∨ (Rect.block (s := S2048x8192) S512x2048.size (cc1_transform_2 i) (hinb1_2 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x2 : Shape := ⟨2, ![2048, 2]⟩
abbrev S8192x2 : Shape := ⟨2, ![8192, 2]⟩
abbrev S2048x1x2 : Shape := ⟨3, ![2048, 1, 2]⟩
abbrev S1x8192x2 : Shape := ⟨3, ![1, 8192, 2]⟩
abbrev S2048x8192x2 : Shape := ⟨3, ![2048, 8192, 2]⟩
abbrev S_ : Shape := ⟨0, ![]⟩
abbrev S2048x8192 : Shape := ⟨2, ![2048, 8192]⟩
abbrev S2048x8192x1 : Shape := ⟨3, ![2048, 8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2, .f32⟩
  | .hbm, ⟨1, _⟩ => ⟨S2048x2, .f32⟩
  | .hbm, ⟨2, _⟩ => ⟨S8192x2, .f32⟩
  | .hbm, ⟨3, _⟩ => ⟨S2048x1x2, .f32⟩
  | .hbm, ⟨4, _⟩ => ⟨S1x8192x2, .f32⟩
  | .hbm, ⟨5, _⟩ => ⟨S2048x8192x2, .f32⟩
  | .hbm, ⟨6, _⟩ => ⟨S2048x8192x2, .f32⟩
  | .hbm, ⟨7, _⟩ => ⟨S2048x8192x2, .f32⟩
  | .hbm, ⟨8, _⟩ => ⟨S2048x8192x2, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x1x2, .f32⟩
  | .hbm, ⟨17, _⟩ => ⟨S1x8192x2, .f32⟩
  | .hbm, ⟨18, _⟩ => ⟨S2048x8192x2, .f32⟩
  | .hbm, ⟨19, _⟩ => ⟨S2048x8192x2, .f32⟩
  | .hbm, ⟨20, _⟩ => ⟨S2048x8192x2, .f32⟩
  | .hbm, ⟨21, _⟩ => ⟨S2048x8192x2, .f32⟩
  | .hbm, ⟨22, _⟩ => ⟨S_, .f32⟩
  | .hbm, ⟨23, _⟩ => ⟨S2048x8192, .f32⟩
  | .hbm, ⟨24, _⟩ => ⟨S2048x8192, .f32⟩
  | .hbm, ⟨25, _⟩ => ⟨S_, .f32⟩
  | .hbm, ⟨26, _⟩ => ⟨S2048x8192, .f32⟩
  | .hbm, ⟨27, _⟩ => ⟨S2048x8192, .f32⟩
  | .hbm, ⟨28, _⟩ => ⟨S2048x8192, .f32⟩
  | .hbm, ⟨29, _⟩ => ⟨S2048x8192x1, .f32⟩
  | .hbm, ⟨30, _⟩ => ⟨S2048x8192x1, .f32⟩
  | .hbm, ⟨31, _⟩ => ⟨S2048x8192x2, .f32⟩
  | _, _ => ⟨S2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  bcast_S2048x2_S2048x1x2_0_2 : S2048x2.BroadcastsInDim S2048x1x2 (![0, 2] : Fin 2 → Fin S2048x1x2.rank)
  bcast_S8192x2_S1x8192x2_1_2 : S8192x2.BroadcastsInDim S1x8192x2 (![1, 2] : Fin 2 → Fin S1x8192x2.rank)
  bcast_S2048x1x2_S2048x8192x2_0_1_2 : S2048x1x2.BroadcastsInDim S2048x8192x2 (![0, 1, 2] : Fin 3 → Fin S2048x8192x2.rank)
  bcast_S1x8192x2_S2048x8192x2_0_1_2 : S1x8192x2.BroadcastsInDim S2048x8192x2 (![0, 1, 2] : Fin 3 → Fin S2048x8192x2.rank)
  reducesTo_S2048x8192x2_S2048x8192_d2 : S2048x8192x2.ReducesTo [2] S2048x8192
  h_S_ : 0 < S_.numel
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  concatenates_S2048x8192x1_S2048x8192x1_S2048x8192x2_d2 : Shape.Concatenates [S2048x8192x1, S2048x8192x1] S2048x8192x2 2

variable [Facts₀]

class Facts : Prop extends Facts₀ where

variable [Facts]
-- ==== Proof.WholeRun.lean ====
/-
  The program's run, with its result named.

  The program is a transposition of the centres' array on the host, two launches, and a host tail that stacks the two
  launches' outputs along a new last axis. Its run is the composition of those four segments; the generated frame
  module gives each segment, the buffers' contents at every boundary between them (`Gen.W0` … `Gen.W4`), and the fact
  that the run is the segments' run. Composing them with the library's theorem for a chain of host stretches and
  launches, and reading back at the end not only the three argument arrays but also the result buffer, gives: every
  weakly fair execution terminates, faults nowhere, leaves the arguments as they were, and leaves the result buffer at
  the last boundary's contents `Gen.W4`. What those contents ARE is the next module's business.
-/
import proofs.«137189_j61151744361061_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; the
    result buffer ends at the contents of the last boundary, and the three argument arrays end as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.WholeRun

end
-- ==== Proof.Rbf.lean ====
/-
  The function both programs compute, and the one law that joins their spellings.

  A point `(p₀, p₁)` of the plane answers a centre `(c₀, c₁)` with `exp (-((p₀ - c₀)² + (p₁ - c₁)²) / w)`, where the
  width `w` is the single-precision word nearest 0.04, the same word in both programs (it is never evaluated: it
  stands on both sides). One program writes the exponent as `(0 - (d₀·d₀ + d₁·d₁)) / w`, the other as
  `(-(0 + Σ_{k < 2} d_k·d_k)) / w`. On the extended reals `0 + s = s` and `0 - s = -s` for every `s`, infinite
  or not, and a sum over two indices is the sum of its two terms, so the two exponents are one number whatever the
  inputs hold: no finiteness is used.
-/
import Idealize.ShloMosaic.PureOps.Ideal
import Idealize.ShloMosaic.Lib.ValueIdx

noncomputable section

open scoped BigOperators

namespace Cert.Rbf

open Idealize.ShloMosaic Idealize.ShloMosaic.ValueIdx

/-- The width of the bump: the single-precision word nearest 0.04, read as the exact number it denotes. -/
def width : EReal := Ideal.ofBits .f32 0x3D23D70A#32

/-- The answer to an offset `(d₀, d₁)` from a centre: `exp ((0 - (d₀² + d₁²)) / width)`. -/
def bump (d0 d1 : EReal) : EReal := Ideal.exp (Ideal.div (0 - (d0 * d0 + d1 * d1)) width)

/-- The same answer with the squared distance written as a sum over the two coordinates started from zero, and
    the sign changed by negation: the exponent is the same extended real. -/
theorem bump_of_sum (d : Fin 2 → EReal) :
    Ideal.exp (Ideal.div (-(0 + ∑ k : Fin 2, d k * d k)) width) = bump (d 0) (d 1) := by
  unfold bump
  rw [Fin.sum_univ_two, zero_add, zero_sub]

/-- The map of answers of 2048 points to 8192 centres, the centres given coordinate-major (row `k` holds every
    centre's coordinate `k`): entry `(b, n)` is the answer of point `b` to centre `n`. -/
def answers (x : (⟨2, ![2048, 2]⟩ : Shape).Idx → EReal) (ct : (⟨2, ![2, 8192]⟩ : Shape).Idx → EReal) :
    (⟨2, ![2048, 8192]⟩ : Shape).Idx → EReal :=
  fun j => bump (x (ix2 (j 0) (0 : Fin 2)) - ct (ix2 (0 : Fin 2) (j 1))) (x (ix2 (j 0) (1 : Fin 2)) - ct (ix2 (1 : Fin 2) (j 1)))

theorem answers_apply (x : (⟨2, ![2048, 2]⟩ : Shape).Idx → EReal) (ct : (⟨2, ![2, 8192]⟩ : Shape).Idx → EReal)
    (b : Fin 2048) (n : Fin 8192) :
    answers x ct (ix2 b n) = bump (x (ix2 b (0 : Fin 2)) - ct (ix2 (0 : Fin 2) n)) (x (ix2 b (1 : Fin 2)) - ct (ix2 (1 : Fin 2) n)) := rfl

end Cert.Rbf

end
-- ==== Proof.Payload.lean ====
/-
  What one grid point of the kernel computes, read at one entry of its block.

  The body loads a block of 512 points (512 × 2) and a block of 2048 centres stored coordinate-major (2 × 2048),
  takes the points' two columns and the centres' two rows, spreads each over the 512 × 2048 block, and forms
  `exp ((0 - (d₀·d₀ + d₁·d₁)) / width)` entry by entry. At entry `(p, q)` of the block the offsets are
  `d_k = points[p, k] - centres[k, q]`: this is `Cert.Rbf.bump` of them. The program's two launches have the same body.
-/
import proofs.«137189_j61151744361061_1_alg».proof.Proof.Gen.KernelIdeal.Skeleton
import proofs.«137189_j61151744361061_1_alg».proof.Proof.Rbf
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- Column `k` of the points' block, spread along the rows of the 512 × 2048 block: entry `(p, q)` is `points[p, k]`. -/
theorem column_spread (k : Fin 2) (x0 : FVec Ideal S512x2 .f32) (hs : S512x2.Slices ![0, k.val] S512x1) (p : Fin 512) (q : Fin 2048) :
    broadcastTo S512x2048 (extractStridedSlice S512x1 ![0, k.val] x0 hs) Gen.broadcasts_S512x1_S512x2048 (ix2 p q) = x0 (ix2 p k) := by
  refine (broadcastTo_apply _ Gen.broadcasts_S512x1_S512x2048 (ix2 p q) (ix2 p (0 : Fin 1)) fun a => ?_).trans ?_
  · match a with
    | ⟨0, _⟩ => show p.val = if (512 : Nat) = 1 then 0 else p.val; rw [if_neg (by decide)]
    | ⟨1, _⟩ => show (0 : Nat) = if (1 : Nat) = 1 then 0 else q.val; rw [if_pos rfl]
  · exact extractStridedSlice_apply _ x0 hs (ix2 p (0 : Fin 1)) (ix2 p k) fun a => by
      match a with
      | ⟨0, _⟩ => exact (Nat.zero_add _).symm
      | ⟨1, _⟩ => exact (Nat.add_zero _).symm

/-- Row `k` of the centres' block, spread down the columns of the 512 × 2048 block: entry `(p, q)` is `centres[k, q]`. -/
theorem row_spread (k : Fin 2) (x1 : FVec Ideal S2x2048 .f32) (hs : S2x2048.Slices ![k.val, 0] S1x2048) (p : Fin 512) (q : Fin 2048) :
    broadcastTo S512x2048 (extractStridedSlice S1x2048 ![k.val, 0] x1 hs) Gen.broadcasts_S1x2048_S512x2048 (ix2 p q) = x1 (ix2 k q) := by
  refine (broadcastTo_1b_ab_apply _ Gen.broadcasts_S1x2048_S512x2048 p q).trans ?_
  exact extractStridedSlice_apply _ x1 hs (ix2 (0 : Fin 1) q) (ix2 k q) fun a => by
    match a with
    | ⟨0, _⟩ => exact (Nat.add_zero _).symm
    | ⟨1, _⟩ => exact (Nat.zero_add _).symm

/-- Entry `(p, q)` of what the body stores is the answer of the block's point `p` to the block's centre `q`. -/
theorem stored_apply (x0 : Vec Ideal S512x2 .f32) (x1 : Vec Ideal S2x2048 .f32) (p : Fin 512) (q : Fin 2048) :
    k0_pay1 (F := Ideal) x0 x1 (ix2 p q)
      = Cert.Rbf.bump (x0 (ix2 p (0 : Fin 2)) - x1 (ix2 (0 : Fin 2) q)) (x0 (ix2 p (1 : Fin 2)) - x1 (ix2 (1 : Fin 2) q)) := by
  unfold k0_pay1
  simp only [shapeCast_self]
  have c0 := column_spread 0 x0 Gen.slices_S512x2_o0_0_S512x1 p q
  have c1 := column_spread 1 x0 Gen.slices_S512x2_o0_1_S512x1 p q
  have r0 := row_spread 0 x1 Gen.slices_S2x2048_o0_0_S1x2048 p q
  have r1 := row_spread 1 x1 Gen.slices_S2x2048_o1_0_S1x2048 p q
  show Ideal.exp (Ideal.div (Ideal.ofBits .f32 0x00000000#32 - ((_ - _) * (_ - _) + (_ - _) * (_ - _))) (Ideal.ofBits .f32 0x3D23D70A#32)) = _
  rw [Ideal.ofBits_zero_f32]
  unfold Cert.Rbf.bump Cert.Rbf.width
  exact congrArg (fun e => Ideal.exp (Ideal.div (0 - e) _))
    (congrArg₂ (· + ·) (congrArg₂ (· * ·) (congrArg₂ (· - ·) c0 r0) (congrArg₂ (· - ·) c0 r0))
      (congrArg₂ (· * ·) (congrArg₂ (· - ·) c1 r1) (congrArg₂ (· - ·) c1 r1)))

/-- The second launch stores the same function of its blocks. -/
theorem second_stored (x0 : Vec Ideal S512x2 .f32) (x1 : Vec Ideal S2x2048 .f32) :
    k1_pay1 (F := Ideal) x0 x1 = k0_pay1 (F := Ideal) x0 x1 := rfl

end Cert.KernelIdeal.Body

end
-- ==== Proof.Blocks.lean ====
/-
  From blocks to arrays: what each of the two launches leaves in its output array.

  Each launch runs the same body over a 4 × 4 grid. Grid point `t` loads 512 rows of a points' array (2048 × 2) and
  2048 columns of the centres' array held coordinate-major (2 × 8192), and writes back a 512 × 2048 block of a
  2048 × 8192 output. The 16 blocks tile the output, and each block is the restriction of ONE function of the two
  input arrays, `Cert.Rbf.answers`: so after the launch the output array IS that function of the input arrays as the
  launch found them. Everything here is stated for arbitrary contents `V` of the buffers at the launch's start, so
  that it serves both launches, whatever ran before them.
-/
import proofs.«137189_j61151744361061_1_alg».proof.Proof.Gen.KernelIdeal.Frame
import proofs.«137189_j61151744361061_1_alg».proof.Proof.Payload
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The body's loads and its store start at the origin of their staging buffers. -/
theorem zero_off : (![0, 0] : Fin 2 → Nat) = fun _ => 0 := funext fun a => by fin_cases a <;> rfl

/-- One entry of a block: if the loaded blocks hold, at the row and column this entry reads, what the whole arrays
    hold at array index `i`'s row and column, the stored entry is the whole-array answer at `i`. -/
theorem block_answers (X : S2048x2.Idx → EReal) (CT : S2x8192.Idx → EReal)
    (x0 : Vec Ideal S512x2 .f32) (x1 : Vec Ideal S2x2048 .f32) (i : S2048x8192.Idx) (p : Fin 512) (q : Fin 2048)
    (h00 : x0 (ix2 p (0 : Fin 2)) = X (ix2 (i 0) (0 : Fin 2))) (h01 : x0 (ix2 p (1 : Fin 2)) = X (ix2 (i 0) (1 : Fin 2)))
    (h10 : x1 (ix2 (0 : Fin 2) q) = CT (ix2 (0 : Fin 2) (i 1))) (h11 : x1 (ix2 (1 : Fin 2) q) = CT (ix2 (1 : Fin 2) (i 1))) :
    k0_pay1 (F := Ideal) x0 x1 (ix2 p q) = Cert.Rbf.answers X CT i := by
  rw [Cert.KernelIdeal.Body.stored_apply, h00, h01, h10, h11]; rfl

/-! ## Launch 0: points from `main_arg0`, centres from the coordinate-major copy, answers into `main_v1` -/

/-- The three windows' block indices over the 4 × 4 grid, decided once: at point `t` the points' block is the
    output block's row of blocks (and its single column of blocks), the centres' block is the output block's column
    of blocks (and its single row of blocks); the output's block indices run over 0..3 each way. -/
theorem maps0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 × 4 output blocks is some grid point's. -/
theorem onto0 : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- What grid point `t` writes back is block `t` of the whole map of answers: entry `(p, q)` of the block sits at row
    `512·(block row) + p` and column `2048·(block column) + q` of the array, the loaded points' row `p` is that row of
    the points' array, and the loaded centres' column `q` is that column of the centres' array. -/
theorem flushed0 (c : Dev nD) (t : Fin cfg0.N) :
    (dat0 V c).flushed 2 t = ((cfg0.win 2).blk t).view.read (Elt Ideal) (Cert.Rbf.answers (V c main_arg0) (V c main_v0)) := by
  show (cfg0.win 2).cut (grid0.coords t) ((dat0 V c).after 2 t) = _
  rw [after0_2]
  unfold out0_2
  rw [View.canon_unit_zero zero_off]
  simp only [View.ld_unit_zero (S := S512x2) zero_off, View.ld_unit_zero (S := S2x2048) zero_off]
  obtain ⟨e0, e1, e2, e3, -, -⟩ := maps0 t
  funext j
  show k0_pay1 (F := Ideal) (iblk0 V c 0 t) (iblk0 V c 1 t) j
    = Cert.Rbf.answers (V c main_arg0) (V c main_v0) (((cfg0.win 2).blk t).view.emb j)
  obtain ⟨p, q, rfl⟩ : ∃ (p : Fin 512) (q : Fin 2048), j = ix2 p q := ⟨j 0, j 1, eq_ix2 j⟩
  refine block_answers (V c main_arg0) (V c main_v0) (iblk0 V c 0 t) (iblk0 V c 1 t)
    (((cfg0.win 2).blk t).view.emb (ix2 p q)) p q ?_ ?_ ?_ ?_
  · show V c main_arg0 (((cfg0.win 0).blk t).view.emb (ix2 p (0 : Fin 2))) = _
    refine congrArg (V c main_arg0) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 2 + 1 * 0 = 0; omega
  · show V c main_arg0 (((cfg0.win 0).blk t).view.emb (ix2 p (1 : Fin 2))) = _
    refine congrArg (V c main_arg0) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 2 + 1 * 1 = 1; omega
  · show V c main_v0 (((cfg0.win 1).blk t).view.emb (ix2 (0 : Fin 2) q)) = _
    refine congrArg (V c main_v0) (funext fun a => Fin.ext ?_)
    match a with
    | ⟨0, _⟩ => show win0_1.index t (0 : Fin 2) * 2 + 1 * 0 = 0; omega
    | ⟨1, _⟩ => show win0_1.index t (1 : Fin 2) * 2048 + 1 * q.val = win0_2.index t (1 : Fin 2) * 2048 + 1 * q.val; omega
  · show V c main_v0 (((cfg0.win 1).blk t).view.emb (ix2 (1 : Fin 2) q)) = _
    refine congrArg (V c main_v0) (funext fun a => Fin.ext ?_)
    match a with
    | ⟨0, _⟩ => show win0_1.index t (0 : Fin 2) * 2 + 1 * 1 = 1; omega
    | ⟨1, _⟩ => show win0_1.index t (1 : Fin 2) * 2048 + 1 * q.val = win0_2.index t (1 : Fin 2) * 2048 + 1 * q.val; omega

/-- An entry of the array is in point `t`'s output block iff each coordinate is in the block's range on its axis. -/
theorem mem_blk0 (t : Fin cfg0.N) (i : S2048x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- The 16 output blocks tile the array: entry `(r, s)` lies in the block of the point whose output block is
    `(r / 512, s / 2048)`, and every point writes its block back. -/
theorem cover0 (i : S2048x8192.Idx) : ∃ t : Fin cfg0.N, (cfg0.win 2).flush t = true ∧ i ∈ ((cfg0.win 2).blk t).view.set := by
  have hi0 : (i 0).val < 2048 := (i 0).isLt
  have hi1 : (i 1).val < 8192 := (i 1).isLt
  obtain ⟨t, ht⟩ := onto0 ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the launch its output array is the whole map of answers of the points' array, as the launch found it, to the
    centres' array, as the launch found it. -/
theorem final0 (c : Dev nD) : (dat0 V c).arrAt 2 cfg0.N = Cert.Rbf.answers (V c main_arg0) (V c main_v0) :=
  (dat0 V c).arrAt_eq_of_cover 2 _ (fun t _ => flushed0 V c t) (cover0)

/-! ## Launch 1: points from `main_arg1`, centres from the coordinate-major copy, answers into `main_v2` -/

/-- The three windows' block indices over the 4 × 4 grid, decided once: at point `t` the points' block is the
    output block's row of blocks (and its single column of blocks), the centres' block is the output block's column
    of blocks (and its single row of blocks); the output's block indices run over 0..3 each way. -/
theorem maps1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 3 ∧ win1_2.index t (1 : Fin 2) ≤ 3 :=
  (by decide +kernel : ∀ t : Fin grid1.N, _)

/-- Every one of the 4 × 4 output blocks is some grid point's. -/
theorem onto1 : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

/-- What grid point `t` writes back is block `t` of the whole map of answers: entry `(p, q)` of the block sits at row
    `512·(block row) + p` and column `2048·(block column) + q` of the array, the loaded points' row `p` is that row of
    the points' array, and the loaded centres' column `q` is that column of the centres' array. -/
theorem flushed1 (c : Dev nD) (t : Fin cfg1.N) :
    (dat1 V c).flushed 2 t = ((cfg1.win 2).blk t).view.read (Elt Ideal) (Cert.Rbf.answers (V c main_arg1) (V c main_v0)) := by
  show (cfg1.win 2).cut (grid1.coords t) ((dat1 V c).after 2 t) = _
  rw [after1_2]
  unfold out1_2
  rw [View.canon_unit_zero zero_off]
  simp only [View.ld_unit_zero (S := S512x2) zero_off, View.ld_unit_zero (S := S2x2048) zero_off]
  obtain ⟨e0, e1, e2, e3, -, -⟩ := maps1 t
  funext j
  show k0_pay1 (F := Ideal) (iblk1 V c 0 t) (iblk1 V c 1 t) j
    = Cert.Rbf.answers (V c main_arg1) (V c main_v0) (((cfg1.win 2).blk t).view.emb j)
  obtain ⟨p, q, rfl⟩ : ∃ (p : Fin 512) (q : Fin 2048), j = ix2 p q := ⟨j 0, j 1, eq_ix2 j⟩
  refine block_answers (V c main_arg1) (V c main_v0) (iblk1 V c 0 t) (iblk1 V c 1 t)
    (((cfg1.win 2).blk t).view.emb (ix2 p q)) p q ?_ ?_ ?_ ?_
  · show V c main_arg1 (((cfg1.win 0).blk t).view.emb (ix2 p (0 : Fin 2))) = _
    refine congrArg (V c main_arg1) (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 2 + 1 * 0 = 0; omega
  · show V c main_arg1 (((cfg1.win 0).blk t).view.emb (ix2 p (1 : Fin 2))) = _
    refine congrArg (V c main_arg1) (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 2 + 1 * 1 = 1; omega
  · show V c main_v0 (((cfg1.win 1).blk t).view.emb (ix2 (0 : Fin 2) q)) = _
    refine congrArg (V c main_v0) (funext fun a => Fin.ext ?_)
    match a with
    | ⟨0, _⟩ => show win1_1.index t (0 : Fin 2) * 2 + 1 * 0 = 0; omega
    | ⟨1, _⟩ => show win1_1.index t (1 : Fin 2) * 2048 + 1 * q.val = win1_2.index t (1 : Fin 2) * 2048 + 1 * q.val; omega
  · show V c main_v0 (((cfg1.win 1).blk t).view.emb (ix2 (1 : Fin 2) q)) = _
    refine congrArg (V c main_v0) (funext fun a => Fin.ext ?_)
    match a with
    | ⟨0, _⟩ => show win1_1.index t (0 : Fin 2) * 2 + 1 * 1 = 1; omega
    | ⟨1, _⟩ => show win1_1.index t (1 : Fin 2) * 2048 + 1 * q.val = win1_2.index t (1 : Fin 2) * 2048 + 1 * q.val; omega

/-- An entry of the array is in point `t`'s output block iff each coordinate is in the block's range on its axis. -/
theorem mem_blk1 (t : Fin cfg1.N) (i : S2048x8192.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v2).slice (win1_2.rect t)).set ↔ _
  rw [View.set_slice_whole, Rect.mem_set_unit]
  exact Iff.rfl

/-- The 16 output blocks tile the array: entry `(r, s)` lies in the block of the point whose output block is
    `(r / 512, s / 2048)`, and every point writes its block back. -/
theorem cover1 (i : S2048x8192.Idx) : ∃ t : Fin cfg1.N, (cfg1.win 2).flush t = true ∧ i ∈ ((cfg1.win 2).blk t).view.set := by
  have hi0 : (i 0).val < 2048 := (i 0).isLt
  have hi1 : (i 1).val < 8192 := (i 1).isLt
  obtain ⟨t, ht⟩ := onto1 ⟨(i 0).val / 512, by omega⟩ ⟨(i 1).val / 2048, by omega⟩
  have q0 : win1_2.index t (0 : Fin 2) = (i 0).val / 512 := congrFun ht 0
  have q1 : win1_2.index t (1 : Fin 2) = (i 1).val / 2048 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- After the launch its output array is the whole map of answers of the points' array, as the launch found it, to the
    centres' array, as the launch found it. -/
theorem final1 (c : Dev nD) : (dat1 V c).arrAt 2 cfg1.N = Cert.Rbf.answers (V c main_arg1) (V c main_v0) :=
  (dat1 V c).arrAt_eq_of_cover 2 _ (fun t _ => flushed1 V c t) (cover1)

end Cert.KernelIdeal.Regions

end
-- ==== Proof.Result.lean ====
/-
  What the program leaves in its result buffer.

  Walking the boundaries' contents from the end back to the launch:
  the host tail stacks, along a new last axis of extent 2, what the two launches left in their output arrays;
  the second launch does not touch the first launch's output; each launch's output array is the map of answers
  (`Cert.Rbf.answers`) of the points' array and the centres' coordinate-major copy as that launch found them; the first
  launch finds the first points' array as launched and the copy as the host's transposition made it; the second launch
  finds the second points' array as launched (the first launch does not write it) and the same copy (the first launch
  only reads it). So the result is the stack of the two maps of answers, of the two arrays of points, to the
  transposed centres.
-/
import proofs.«137189_j61151744361061_1_alg».proof.Proof.Gen.KernelIdeal.Frame
import proofs.«137189_j61151744361061_1_alg».proof.Proof.Blocks
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The centres' array held coordinate-major: the host's transposition of it. -/
def centresT (c2 : (⟨S8192x2, .f32⟩ : BufTy).Contents (Elt Ideal)) : (⟨S2x8192, .f32⟩ : BufTy).Contents (Elt Ideal) :=
  transpose S2x8192 [1, 0] c2 Gen.transposes_S8192x2_S2x8192_1_0

/-- Row `k`, column `n` of the coordinate-major copy is coordinate `k` of centre `n`. -/
theorem centresT_apply (c2 : (⟨S8192x2, .f32⟩ : BufTy).Contents (Elt Ideal)) (k : Fin 2) (n : Fin 8192) :
    centresT c2 (ix2 k n) = c2 (ix2 n k) :=
  transpose_ix2_apply c2 Gen.transposes_S8192x2_S2x8192_1_0 k n

/-- The host tail: two maps stacked along a new last axis of extent 2. -/
def stacked (A B : (⟨S2048x8192, .f32⟩ : BufTy).Contents (Elt Ideal)) : (⟨S2048x8192x2, .f32⟩ : BufTy).Contents (Elt Ideal) :=
  concatenate S2048x8192x2 2
    [⟨S2048x8192x1, broadcastInDim S2048x8192x1 ![0, 1] Gen.bcast_S2048x8192_S2048x8192x1_0_1 A⟩,
     ⟨S2048x8192x1, broadcastInDim S2048x8192x1 ![0, 1] Gen.bcast_S2048x8192_S2048x8192x1_0_1 B⟩]
    Gen.concatenates_S2048x8192x1_S2048x8192x1_S2048x8192x2_d2

/-- The first launch finds the first points' array as launched: the host's transposition writes another buffer. -/
theorem entry_points0 (c : Dev nD) : V1 m ρ c main_arg0 = m ((c : Thread nD τ).loc main_arg0) := by
  show StableHlo.after hostOps0 (W0 m ρ c) (Proc.devRef .tc main_arg0) = _
  after_results

/-- The first launch finds the coordinate-major copy as the host's transposition of the launched centres. -/
theorem entry_centres0 (c : Dev nD) : V1 m ρ c main_v0 = centresT (m ((c : Thread nD τ).loc main_arg2)) := by
  show StableHlo.after hostOps0 (W0 m ρ c) (Proc.devRef .tc main_v0) = _
  after_results
  rfl

/-- The second launch finds the second points' array as launched: neither the transposition nor the first launch writes it. -/
theorem entry_points1 (c : Dev nD) : V2 m ρ c main_arg1 = m ((c : Thread nD τ).loc main_arg1) :=
  (W2_of_ne m ρ c main_arg1 (by decide)).trans (by
    show StableHlo.after hostOps0 (W0 m ρ c) (Proc.devRef .tc main_arg1) = _
    after_results)

/-- The second launch finds the same coordinate-major copy: the first launch only reads it. -/
theorem entry_centres1 (c : Dev nD) : V2 m ρ c main_v0 = centresT (m ((c : Thread nD τ).loc main_arg2)) :=
  ((W2_arr m ρ c 1).trans (((dat0 (V1 m ρ) c).arrAt_in 1 rfl _).trans (A_eq0 (V1 m ρ) c 1))).trans (entry_centres0 m ρ c)

/-- After both launches the first launch's output still holds the first points' answers. -/
theorem out0 (c : Dev nD) :
    W3 m ρ c (Proc.devRef .tc main_v1)
      = Cert.Rbf.answers (m ((c : Thread nD τ).loc main_arg0)) (centresT (m ((c : Thread nD τ).loc main_arg2))) := by
  refine (W3_of_ne m ρ c main_v1 (by decide)).trans ?_
  refine (W2_arr m ρ c 2).trans ?_
  rw [Cert.KernelIdeal.Regions.final0 (V1 m ρ) c, entry_points0, entry_centres0]

/-- After both launches the second launch's output holds the second points' answers. -/
theorem out1 (c : Dev nD) :
    W3 m ρ c (Proc.devRef .tc main_v2)
      = Cert.Rbf.answers (m ((c : Thread nD τ).loc main_arg1)) (centresT (m ((c : Thread nD τ).loc main_arg2))) := by
  refine (W3_arr m ρ c 2).trans ?_
  rw [Cert.KernelIdeal.Regions.final1 (V2 m ρ) c, entry_points1, entry_centres1]

/-- The host tail applied to what the launches left. -/
theorem tail (c : Dev nD) :
    W4 m ρ c (Proc.devRef .tc main_v5) = stacked (W3 m ρ c (Proc.devRef .tc main_v1)) (W3 m ρ c (Proc.devRef .tc main_v2)) := by
  show StableHlo.after hostOps2 (W3 m ρ c) (Proc.devRef .tc main_v5) = _
  after_results
  rfl

/-- The result buffer at the end: the two maps of answers, stacked. -/
theorem result (c : Dev nD) :
    W4 m ρ c (Proc.devRef .tc main_v5)
      = stacked (Cert.Rbf.answers (m ((c : Thread nD τ).loc main_arg0)) (centresT (m ((c : Thread nD τ).loc main_arg2))))
          (Cert.Rbf.answers (m ((c : Thread nD τ).loc main_arg1)) (centresT (m ((c : Thread nD τ).loc main_arg2)))) := by
  rw [tail, out0, out1]

end Cert.KernelIdeal.Result

end
-- ==== Proof.RefStage.lean ====
/-
  The reference's map of answers, read at one entry.

  The reference forms the array of differences `x[b, k] - c[n, k]` over (point, centre, coordinate), squares it,
  sums the last axis starting from zero, negates, divides by the width and exponentiates. Read at entry `(b, n)`
  this is the sum-spelling of `Cert.Rbf.bump`, with the offsets `x[b, k] - c[n, k]`, `k = 0, 1`. The second half
  of the reference does the same to the second array of points: its stages are the same terms under other names.
-/
import proofs.«137189_j61151744361061_1_alg».proof.Proof.Gen.ReferenceIdeal.Read
import proofs.«137189_j61151744361061_1_alg».proof.Proof.Rbf
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Coordinate `k` of point `b`, followed through the two broadcasts and the reduction's index. -/
theorem point_idx (b : Fin 2048) (n : Fin 8192) (k : Fin 2) :
    idx_main_v0 (idx_main_v2 (idx_main_v6 (ix2 b n) k)) = ix2 b k :=
  funext fun a => Fin.ext (by match a with | ⟨0, _⟩ => rfl | ⟨1, _⟩ => rfl)

/-- Coordinate `k` of centre `n`, followed through the two broadcasts and the reduction's index. -/
theorem centre_idx (b : Fin 2048) (n : Fin 8192) (k : Fin 2) :
    idx_main_v1 (idx_main_v3 (idx_main_v6 (ix2 b n) k)) = ix2 n k :=
  funext fun a => Fin.ext (by match a with | ⟨0, _⟩ => rfl | ⟨1, _⟩ => rfl)

/-- Entry `(b, n)` of the reference's first map is the answer of point `b` to centre `n`. -/
theorem stage_apply (x : (⟨S2048x2, .f32⟩ : BufTy).Contents (Elt Ideal)) (c : (⟨S8192x2, .f32⟩ : BufTy).Contents (Elt Ideal))
    (b : Fin 2048) (n : Fin 8192) :
    val_main_v10 (F := Ideal) x c (ix2 b n)
      = Cert.Rbf.bump (x (ix2 b (0 : Fin 2)) - c (ix2 n (0 : Fin 2))) (x (ix2 b (1 : Fin 2)) - c (ix2 n (1 : Fin 2))) := by
  rw [val_main_v10_apply, val_main_v9_apply, val_main_v7_apply, val_main_v8_apply, val_main_cst_0_apply,
    val_main_v6_apply, val_main_cst_apply]
  simp only [val_main_v5_apply, val_main_v4_apply, val_main_v2_apply, val_main_v3_apply, val_main_v0_apply,
    val_main_v1_apply, point_idx, centre_idx, Ideal.hostUnary_exp_def, Ideal.hostDivf_def, Ideal.hostNegf_def,
    Ideal.negf_def, Ideal.subf_def, Ideal.mulf_def, Ideal.ofBits_def, Ideal.ofBits_zero_f32]
  exact Cert.Rbf.bump_of_sum fun k => x (ix2 b k) - c (ix2 n k)

/-- The reference's first map, whole: it is the map of answers of the points to the centres, the centres read through
    any coordinate-major copy `ct` of them (`ct[k, n] = c[n, k]`). -/
theorem stage_eq (x : (⟨S2048x2, .f32⟩ : BufTy).Contents (Elt Ideal)) (c : (⟨S8192x2, .f32⟩ : BufTy).Contents (Elt Ideal))
    (ct : (⟨2, ![2, 8192]⟩ : Shape).Idx → EReal) (hct : ∀ (k : Fin 2) (n : Fin 8192), ct (ix2 k n) = c (ix2 n k)) :
    val_main_v10 (F := Ideal) x c = Cert.Rbf.answers x ct := by
  funext j
  obtain ⟨b, n, rfl⟩ : ∃ (b : Fin 2048) (n : Fin 8192), j = ix2 b n := ⟨j 0, j 1, eq_ix2 j⟩
  rw [stage_apply, Cert.Rbf.answers_apply, hct, hct]

/-- The reference's second map is the first map's function, applied to the second array of points. -/
theorem second_stage (x : (⟨S2048x2, .f32⟩ : BufTy).Contents (Elt Ideal)) (c : (⟨S8192x2, .f32⟩ : BufTy).Contents (Elt Ideal)) :
    val_main_v21 (F := Ideal) x c = val_main_v10 (F := Ideal) x c := rfl

end Cert.ReferenceIdeal.RefValue

end
-- ==== Proof.Bridge.lean ====
/-
  The two programs' results are one function of the arguments.

  The reference ends by stacking its two maps along a new last axis, exactly as the kernel program's host tail does, so
  it is enough that the maps agree: the reference's first map is the map of answers of the first points to the centres
  read through ANY coordinate-major copy of them (`RefValue.stage_eq`), in particular through the host's transposition,
  which is what the launches read; its second map is the same function of the second points.
-/
import proofs.«137189_j61151744361061_1_alg».proof.Proof.Result
import proofs.«137189_j61151744361061_1_alg».proof.Proof.RefStage

noncomputable section

namespace Cert.Proof.Bridge

open Idealize.ShloMosaic Idealize.ShloMosaic.ValueIdx
open Cert.KernelIdeal.Result

/-- The reference's result, as a function of the three argument arrays, is the stack of the two maps of answers to
    the transposed centres: the closed form of the kernel program's result. -/
theorem reference_result (x0 x1 : (⟨Cert.ReferenceIdeal.S2048x2, .f32⟩ : BufTy).Contents (Elt Ideal))
    (x2 : (⟨Cert.ReferenceIdeal.S8192x2, .f32⟩ : BufTy).Contents (Elt Ideal)) :
    Cert.ReferenceIdeal.Read.val_main_v24 (F := Ideal) x0 x1 x2
      = stacked (Cert.Rbf.answers x0 (centresT x2)) (Cert.Rbf.answers x1 (centresT x2)) := by
  unfold Cert.ReferenceIdeal.Read.val_main_v24 Cert.ReferenceIdeal.Read.val_main_v22 Cert.ReferenceIdeal.Read.val_main_v23
  rw [Cert.ReferenceIdeal.RefValue.second_stage,
    Cert.ReferenceIdeal.RefValue.stage_eq x0 x2 (centresT x2) (centresT_apply x2),
    Cert.ReferenceIdeal.RefValue.stage_eq x1 x2 (centresT x2) (centresT_apply x2)]
  rfl

end Cert.Proof.Bridge

end
-- ==== Proof.lean ====
/-
  Two programs computing radial bumps, and why they agree on the extended reals.

  Arguments: two arrays of 2048 points of the plane and one array of 8192 centres. Result: for each array of points,
  each point `p` and each centre `c`, the number `exp (-((p₀ - c₀)² + (p₁ - c₁)²) / w)`, `w` the single-precision word
  nearest 0.04; the two maps are stacked along a last axis of extent 2.

  The kernel program transposes the centres on the host, runs one launch per array of points (a 4 × 4 grid of
  512 × 2048 blocks, each block computed from 512 points and 2048 centres), and stacks the outputs on the host. The
  reference forms all coordinate differences at once, squares, sums the coordinate axis from zero, negates, divides and
  exponentiates. The modules under Proof/ carry the argument:
    Rbf       the answer of a point to a centre, the whole map of answers, and the law joining the two spellings of
              the exponent (`0 - (a + b)` against `-(0 + Σ)`: equal for every extended real, so the finiteness of the
              inputs is never used);
    Payload   one entry of what a grid point stores is that answer;
    Blocks    the 16 blocks tile each launch's output, so the output array is the whole map of answers;
    WholeRun  the program's run, ending with the result buffer at the last segment boundary's contents;
    Result    those contents: the stack of the two maps of answers to the transposed centres;
    RefStage  one entry of the reference's map is the same answer;
    Bridge    hence the reference's result is the same function of the arguments.
  The three frames are the generated runs; the idealization rewrote nothing, so `preserves` has nothing to state.
-/
import proofs.«137189_j61151744361061_1_alg».proof.Defs
import proofs.«137189_j61151744361061_1_alg».proof.Proof.Gen.Kernel
import proofs.«137189_j61151744361061_1_alg».proof.Proof.Gen.Kernel.Skeleton
import proofs.«137189_j61151744361061_1_alg».proof.Proof.Gen.Kernel.Launch
import proofs.«137189_j61151744361061_1_alg».proof.Proof.Gen.Kernel.Points
import proofs.«137189_j61151744361061_1_alg».proof.Proof.Gen.Kernel.Frame
import proofs.«137189_j61151744361061_1_alg».proof.Proof.Gen.KernelIdeal
import proofs.«137189_j61151744361061_1_alg».proof.Proof.Gen.KernelIdeal.Skeleton
import proofs.«137189_j61151744361061_1_alg».proof.Proof.Gen.KernelIdeal.Launch
import proofs.«137189_j61151744361061_1_alg».proof.Proof.Gen.KernelIdeal.Points
import proofs.«137189_j61151744361061_1_alg».proof.Proof.Gen.KernelIdeal.Frame
import proofs.«137189_j61151744361061_1_alg».proof.Proof.Gen.ReferenceIdeal
import proofs.«137189_j61151744361061_1_alg».proof.Proof.Gen.Pre_finite_inputs
import proofs.«137189_j61151744361061_1_alg».proof.Proof.Gen.ReferenceIdeal.Run
import proofs.«137189_j61151744361061_1_alg».proof.Proof.Gen.ReferenceIdeal.Read
import proofs.«137189_j61151744361061_1_alg».proof.Proof.WholeRun
import proofs.«137189_j61151744361061_1_alg».proof.Proof.Result
import proofs.«137189_j61151744361061_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the idealized program. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the stack of the two maps of answers of the points
    to the transposed centres: the kernel program by its run and the contents of its last boundary, the reference by
    its run and the bridge. -/
theorem algebraic : Cert.algebraic_KernelIdeal_ReferenceIdeal := by
  intro m ρ m' ρ' _ hagree
  refine ⟨fun c => Cert.KernelIdeal.Result.stacked
      (Cert.Rbf.answers (m ((c.tc : Thread Cert.KernelIdeal.nD Cert.KernelIdeal.τ).loc Cert.KernelIdeal.main_arg0))
        (Cert.KernelIdeal.Result.centresT (m ((c.tc : Thread Cert.KernelIdeal.nD Cert.KernelIdeal.τ).loc Cert.KernelIdeal.main_arg2))))
      (Cert.Rbf.answers (m ((c.tc : Thread Cert.KernelIdeal.nD Cert.KernelIdeal.τ).loc Cert.KernelIdeal.main_arg1))
        (Cert.KernelIdeal.Result.centresT (m ((c.tc : Thread Cert.KernelIdeal.nD Cert.KernelIdeal.τ).loc Cert.KernelIdeal.main_arg2)))), ?_, ?_⟩
  · exact (θ_run Cert.KernelIdeal.defs _ _).mono
      (fun r h c => ⟨(h c).1.trans (Cert.KernelIdeal.Result.result m ρ c), (h c).2⟩)
      (Cert.KernelIdeal.WholeRun.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, (hagree c).1, (hagree c).2.1, (hagree c).2.2]
    exact Cert.Proof.Bridge.reference_result _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
